-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2048x512 : Shape := ⟨2, ![2048, 512]⟩
abbrev S512x512 : Shape := ⟨2, ![512, 512]⟩
abbrev S2048x1 : Shape := ⟨2, ![2048, 1]⟩
abbrev S1x512 : Shape := ⟨2, ![1, 512]⟩

abbrev nBuf : Space → Nat
  | .hbm => 14
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x512, .bf16⟩
  | .hbm, ⟨12, _⟩ => ⟨S8192x512, .bf16⟩
  | .hbm, ⟨13, _⟩ => ⟨S8192x8192, .f32⟩
  | .local _ .vmem, ⟨0, _⟩ => ⟨S2048x512, .bf16⟩
  | .local _ .vmem, ⟨1, _⟩ => ⟨S2048x512, .bf16⟩
  | .local _ .vmem, ⟨2, _⟩ => ⟨S512x512, .bf16⟩
  | .local _ .vmem, ⟨3, _⟩ => ⟨S512x512, .bf16⟩
  | .local _ .vmem, ⟨4, _⟩ => ⟨S2048x1, .f32⟩
  | .local _ .vmem, ⟨5, _⟩ => ⟨S2048x1, .f32⟩
  | .local _ .vmem, ⟨6, _⟩ => ⟨S1x512, .f32⟩
  | .local _ .vmem, ⟨7, _⟩ => ⟨S1x512, .f32⟩
  | .local _ .vmem, ⟨8, _⟩ => ⟨S2048x512, .f32⟩
  | .local _ .vmem, ⟨9, _⟩ => ⟨S2048x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2048x1_S2048x512 : S2048x1.Broadcasts S2048x512
  broadcasts_S1x512_S2048x512 : S1x512.Broadcasts S2048x512
  dot_S2048x512_S512x512_S2048x512_1_1_0_0_n_n_wf : DotDims.WF S2048x512 S512x512 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .bf16 = 32 ∨ (Rect.block (s := S8192x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .bf16 = 32 ∨ (Rect.block (s := S8192x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S8192x8192.size a
  hwx0_4 : ∀ i : grid0.Coords, EltTy.bits .f32 = 32 ∨ (Rect.block (s := S8192x8192) S2048x512.size (cc0_transform_4 i) (hinb0_4 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev win0_0 : Pipeline.Window sig grid0 :=
  Pipeline.Window.ofSpec (Memref.whole main_v7) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 21
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.SqDistSpec.lean ====
/-
  The specification: pairwise squared distances through the expansion |q − s|² = |q|² + |s|² − 2 q·s.

  For two arrays `q`, `s` of 8192 rows of 512 extended reals, entry `(n, m)` of the result is
      max ( (|q_n|² + |s_m|²) − 2 · ⟨q_n, s_m⟩ , 0 )
  where |x_n|² = 0 + Σ_k x(n,k)·x(n,k) (the sum started from the zero word, as a reduction with a zero initial value
  gives it) and ⟨q_n, s_m⟩ = Σ_k q(n,k)·s(m,k).  The three float literals (0, 2, 0) stay as the words both programs
  print; they are the same words on both sides and are never evaluated.  Both programs compute exactly this
  expression, in this grouping, so no law of the extended reals beyond reading each operation at an index is used.
-/
import Idealize.ShloMosaic.Lib.ValueIdx
import Idealize.ShloMosaic.PureOps.Ideal.Laws

noncomputable section

open scoped BigOperators

namespace Cert.SqDist

open Idealize.ShloMosaic Idealize.ShloMosaic.ValueIdx

/-- The squared norm of row `n`: the sum of the squares of its 512 entries, started from the zero word. -/
def sqnorm (x : (⟨2, ![8192, 512]⟩ : Shape).Idx → EReal) (n : Fin 8192) : EReal :=
  Ideal.ofBits .f32 0x00000000#32 + ∑ k : Fin 512, x (ix2 n k) * x (ix2 n k)

/-- The inner product of row `n` of `q` with row `m` of `s`. -/
def inner (q s : (⟨2, ![8192, 512]⟩ : Shape).Idx → EReal) (n m : Fin 8192) : EReal :=
  ∑ k : Fin 512, q (ix2 n k) * s (ix2 m k)

/-- The clamped squared distance between row `n` of `q` and row `m` of `s`, from two squared norms `a`, `b` and an
    inner product `x`: max((a + b) − 2·x, 0). -/
def clamp (a b x : EReal) : EReal :=
  max ((a + b) - Ideal.ofBits .f32 0x40000000#32 * x) (Ideal.ofBits .f32 0x00000000#32)

/-- The result array: entry `(n, m)` is the clamped squared distance of row `n` of `q` and row `m` of `s`. -/
def dist (q s : (⟨2, ![8192, 512]⟩ : Shape).Idx → EReal) : (⟨2, ![8192, 8192]⟩ : Shape).Idx → EReal :=
  fun i => clamp (sqnorm q (i 0)) (sqnorm s (i 1)) (inner q s (i 0) (i 1))

theorem dist_ix2 (q s : (⟨2, ![8192, 512]⟩ : Shape).Idx → EReal) (n m : Fin 8192) :
    dist q s (ix2 n m) = clamp (sqnorm q n) (sqnorm s m) (inner q s n m) := rfl

end Cert.SqDist

end
-- ==== Proof.LibRowDot.lean ====
/-
  General lemma: a product of an `M × K` array with the TRANSPOSE of an `N × K` array, read at an index.

  For dimension numbers `D` of a product of an `M × K` operand with an `N × K` operand into `M × N` that contract the
  second axis of both operands and have no batch axis, the sum over `D`'s contraction index — what the ideal
  instance gives for a `tpu.matmul` into a zero accumulator and for a host `dot_general` alike — is the inner product
  of two rows: entry `(r, c)` is the sum over `k : Fin K` of the left operand at `(r, k)` times the right operand at
  `(c, k)`.  That `D` has this form is stated as four facts about the coordinates of its operand indices, which a
  concrete record proves by unfolding its lists of axes.
-/
import Idealize.ShloMosaic.Lib.ValueIdx
import Idealize.ShloMosaic.PureOps.Ideal.Laws

noncomputable section

open scoped BigOperators

namespace Cert.Lib.RowDot

open Idealize.ShloMosaic Idealize.ShloMosaic.ValueIdx

/-- The contraction sum of a rows-by-rows product, re-indexed by the contracted axis' coordinate: at the output
    index `j` the left operand is read along its row `j 0` and the right operand along its row `j 1`. -/
theorem sum_rows {M K N : Nat}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (l : (⟨2, ![M, K]⟩ : Shape).Idx → EReal) (r : (⟨2, ![N, K]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 (j 1) k := funext fun a => Fin.ext (by
    match a with
    | ⟨0, _⟩ => exact r0 _ _
    | ⟨1, _⟩ => exact (r1 _ _).trans hk)
  exact congrArg₂ (fun a b : EReal => a * b) (congrArg l el) (congrArg r er)

/-- A `tpu.matmul` with such dimension numbers into the zero accumulator, at the ideal instance, is that sum. -/
theorem matmul_zero_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision)
    (l : FVec Ideal (⟨2, ![M, K]⟩ : Shape) φ₁) (r : FVec Ideal (⟨2, ![N, K]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 (j 1) k) := by
  rw [Ideal.matmul_constant_zero_apply]
  exact sum_rows D hr hs l0 l1 r0 r1 l r j

/-- A host `dot_general` with such dimension numbers, at the ideal instance, is the same sum, whatever its precision
    and schedule keys. -/
theorem dotGeneral_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision) (sched : HostSchedule)
    (l : FVec Ideal (⟨2, ![M, K]⟩ : Shape) φ₁) (r : FVec Ideal (⟨2, ![N, K]⟩ : Shape) φ₂)
    (j : (⟨2, ![M, N]⟩ : Shape).Idx) :
    FloatOps.dotGeneral D prec sched l r j = ∑ k : Fin K, l (ix2 (j 0) k) * r (ix2 (j 1) k) := by
  rw [Ideal.dotGeneral_apply]
  exact sum_rows D hr hs l0 l1 r0 r1 l r j

end Cert.Lib.RowDot

end
-- ==== Proof.LibKeepdims.lean ====
/-
  General lemmas: the "keepdims" column forms of a rank-2 array read at an index.
  A vector of length `n` cast to an `[n, 1]` column, and an `[n, 1]` column broadcast along its unit axis to
  `[n, b]`, each read at an index built with `ix2`; and the index a reduction over the last axis of an `[n, b]`
  array inserts.
-/
import Idealize.ShloMosaic.Lib.ValueIdx
import Idealize.ShloMosaic.Lib.Pipeline.Value
import Idealize.ShloMosaic.Lib.ValueLayout

noncomputable section

namespace Keepdims

open Idealize.ShloMosaic Idealize.ShloMosaic.ValueIdx

variable {α : Type}

/-- An `[n, 1]` column broadcast to `[n, b]` reads, at `(p, j)`, the column at `p`. -/
theorem broadcastTo_a1_ab_apply {n b : ℕ} (v : (⟨2, ![n, 1]⟩ : Shape).Idx → α) (h : (⟨2, ![n, 1]⟩ : Shape).Broadcasts ⟨2, ![n, b]⟩)
    (p : Fin n) (j : Fin b) : broadcastTo ⟨2, ![n, b]⟩ v h (ix2 p j) = v (ix2 p (0 : Fin 1)) := by
  refine broadcastTo_apply v h (ix2 p j) (ix2 p (0 : Fin 1)) fun ax => ?_
  match ax with
  | ⟨0, _⟩ =>
    show p.val = if n = 1 then 0 else p.val
    split
    · have := p.isLt; omega
    · rfl
  | ⟨1, _⟩ => rfl

/-- A length-`n` vector cast to an `[n, 1]` column reads, at `(p, 0)`, the vector at `p`. -/
theorem shapeCast_a_a1_apply {n : ℕ} (v : (⟨1, ![n]⟩ : Shape).Idx → α) (h : (⟨1, ![n]⟩ : Shape).ShapeCasts ⟨2, ![n, 1]⟩)
    (p : Fin n) : shapeCast ⟨2, ![n, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

end Keepdims

end
-- ==== Proof.BlockDist.lean ====
/-
  What the kernel body computes on one block, read at an index.

  The body loads a block of 2048 rows of q, a block of 512 rows of s (both already in the narrow format, which at
  the ideal instance is the same extended real), a column of 2048 squared norms and a row of 512 squared norms, and
  stores max((column + row) − 2·(q-block · s-blockᵀ), 0): entry `(p, r)` of the stored block is the clamped squared
  distance built from the column at `p`, the row at `r` and the inner product of row `p` of the q-block with row `r`
  of the s-block (a matrix product into a zero accumulator contracting the second axis of both operands).
-/
import proofs.«142391_j55722905699254_2_alg».proof.Proof.Gen.KernelIdeal.Skeleton
import proofs.«142391_j55722905699254_2_alg».proof.Proof.SqDistSpec
import proofs.«142391_j55722905699254_2_alg».proof.Proof.LibRowDot
import proofs.«142391_j55722905699254_2_alg».proof.Proof.LibKeepdims
import Idealize.ShloMosaic.Lib.ValueLayout
import Idealize.ShloMosaic.Lib.Pipeline.Value

noncomputable section

open scoped BigOperators

namespace Cert.SqDist.Block

open Cert.KernelIdeal Cert.KernelIdeal.Gen Idealize.ShloMosaic Idealize.ShloMosaic.ValueIdx

/-- The body's matrix product contracts the second axis of both operands: the coordinates of its operand indices. -/
theorem lhs0 (j : S2048x512.Idx) (q : dot_S2048x512_S512x512_S2048x512_1_1_0_0_n_n.contr.Idx) :
    (dot_S2048x512_S512x512_S2048x512_1_1_0_0_n_n.lhsIdx j q 0).val = (j 0).val := by
  unfold DotDims.lhsIdx
  rw [dif_neg (show ¬(0 : Fin S2048x512.rank) ∈ dot_S2048x512_S512x512_S2048x512_1_1_0_0_n_n.lhsBatch by decide),
    dif_pos (show (0 : Fin S2048x512.rank) ∈ dot_S2048x512_S512x512_S2048x512_1_1_0_0_n_n.lhsNonContracting by decide)]
  rfl
theorem lhs1 (j : S2048x512.Idx) (q : dot_S2048x512_S512x512_S2048x512_1_1_0_0_n_n.contr.Idx) :
    (dot_S2048x512_S512x512_S2048x512_1_1_0_0_n_n.lhsIdx j q 1).val = (q ⟨0, by decide⟩).val :=
  dot_S2048x512_S512x512_S2048x512_1_1_0_0_n_n.lhsIdx_val_of_single rfl j q
theorem rhs0 (j : S2048x512.Idx) (q : dot_S2048x512_S512x512_S2048x512_1_1_0_0_n_n.contr.Idx) :
    (dot_S2048x512_S512x512_S2048x512_1_1_0_0_n_n.rhsIdx j q 0).val = (j 1).val := by
  unfold DotDims.rhsIdx
  rw [dif_neg (show ¬(0 : Fin S512x512.rank) ∈ dot_S2048x512_S512x512_S2048x512_1_1_0_0_n_n.rhsBatch by decide),
    dif_pos (show (0 : Fin S512x512.rank) ∈ dot_S2048x512_S512x512_S2048x512_1_1_0_0_n_n.rhsNonContracting by decide)]
  rfl
theorem rhs1 (j : S2048x512.Idx) (q : dot_S2048x512_S512x512_S2048x512_1_1_0_0_n_n.contr.Idx) :
    (dot_S2048x512_S512x512_S2048x512_1_1_0_0_n_n.rhsIdx j q 1).val = (q ⟨0, by decide⟩).val :=
  dot_S2048x512_S512x512_S2048x512_1_1_0_0_n_n.rhsIdx_val_of_single rfl j q

/-- The body's product at `(p, r)`: the inner product of row `p` of the left block with row `r` of the right block. -/
theorem cross_apply (l : FVec Ideal S2048x512 .bf16) (rr : FVec Ideal S512x512 .bf16) (p : Fin 2048) (r : Fin 512) :
    matmul dot_S2048x512_S512x512_S2048x512_1_1_0_0_n_n none l rr (constant S2048x512 .f32 0x00000000#32) (ix2 p r)
      = ∑ k : Fin 512, l (ix2 p k) * rr (ix2 r k) :=
  Cert.Lib.RowDot.matmul_zero_apply dot_S2048x512_S512x512_S2048x512_1_1_0_0_n_n rfl rfl lhs0 lhs1 rhs0 rhs1 none l rr (ix2 p r)

/-- The stored block at `(p, r)`. -/
theorem pay_apply (x0 : Vec Ideal S2048x512 .bf16) (x1 : Vec Ideal S512x512 .bf16) (x2 : Vec Ideal S2048x1 .f32)
    (x3 : Vec Ideal S1x512 .f32) (p : Fin 2048) (r : Fin 512) :
    k0_pay1 (F := Ideal) x0 x1 x2 x3 (ix2 p r)
      = clamp (x2 (ix2 p (0 : Fin 1))) (x3 (ix2 (0 : Fin 1) r)) (∑ k : Fin 512, x0 (ix2 p k) * x1 (ix2 r k)) := by
  unfold k0_pay1
  simp only [shapeCast_self]
  rw [maximumf_apply, subf_apply, addf_apply, mulf_apply, broadcast_apply, broadcast_apply,
    Keepdims.broadcastTo_a1_ab_apply, broadcastTo_1b_ab_apply, cross_apply]
  rfl

end Cert.SqDist.Block

end
-- ==== Proof.RegionEntry.lean ====
/-
  The arrays as the region finds them.

  Before the region the program computes, from the two arguments q and s: the squared norms of the rows of q as a
  column [8192, 1]; the squared norms of the rows of s as a column, transposed into a row [1, 8192]; and a copy of
  each argument in the narrow format — at the ideal instance the same extended reals.  Read at an index: the column
  at `(n, 0)` is the squared norm of row `n` of q, the row at `(0, n)` the squared norm of row `n` of s.
-/
import proofs.«142391_j55722905699254_2_alg».proof.Proof.Gen.KernelIdeal.Frame
import proofs.«142391_j55722905699254_2_alg».proof.Proof.SqDistSpec
import Idealize.ShloMosaic.Lib.ValueLayout
import Idealize.ShloMosaic.Lib.Pipeline.Value
import Idealize.ShloMosaic.Lib.StableHlo.Run

noncomputable section

open scoped BigOperators

namespace Cert.SqDist.Entry

open Cert.KernelIdeal Cert.KernelIdeal.Gen Idealize.ShloMosaic Idealize.ShloMosaic.TcCoe Idealize.SL.Sem
open Idealize.ShloMosaic.ValueIdx

/-- The host's reduction over the second axis of a [8192, 512] array, at row `n`: the initial value plus the sum
    of the row's 512 entries. -/
theorem rowsum_apply (y : FVec Ideal S8192x512 .f32) (z : FVec Ideal S_ .f32) (n : Fin 8192) :
    Host.reduceAdd y z reducesTo_S8192x512_S8192_d1 h_S_ (ix1 n) = z (Shape.Idx.first h_S_) + ∑ k : Fin 512, y (ix2 n k) := by
  simp only [Host.reduceAdd, Ideal.hostReduceAdd_def]
  rw [Ideal.hostReduceAdd_single reducesTo_S8192x512_S8192_d1 (by decide)]
  refine congrArg (_ + ·) (Finset.sum_congr rfl fun k _ => ?_)
  exact congrArg y (funext fun a => Fin.ext (by match a with | ⟨0, _⟩ => rfl | ⟨1, _⟩ => rfl))

/-- The squared norms of the rows of an array, as the host's reduction over the second axis of its square. -/
def norms (a : FVec Ideal S8192x512 .f32) : FVec Ideal S8192 .f32 :=
  Host.reduceAdd (mulf a a) (constant S_ .f32 0x00000000#32) reducesTo_S8192x512_S8192_d1 h_S_

/-- At row `n` it is the specification's squared norm. -/
theorem norms_apply (a : FVec Ideal S8192x512 .f32) (n : Fin 8192) : norms a (ix1 n) = sqnorm a n := by
  unfold norms
  rw [rowsum_apply]
  rfl

/-- The squared norms as a column [8192, 1], read at `(n, 0)`. -/
theorem column_apply (v : FVec Ideal S8192 .f32) (n : Fin 8192) :
    broadcastInDim S8192x1 ![0] bcast_S8192_S8192x1_0 v (ix2 n (0 : Fin 1)) = v (ix1 n) :=
  broadcastInDim_apply _ bcast_S8192_S8192x1_0 v (ix2 n (0 : Fin 1)) (ix1 n) (fun a => match a with
    | ⟨0, _⟩ => by show n.val = if (8192 : Nat) = 1 then 0 else n.val; rw [if_neg (by decide)])

/-- That column transposed into a row [1, 8192], read at `(0, n)`. -/
theorem row_apply (x : FVec Ideal S8192x1 .f32) (n : Fin 8192) :
    transpose S1x8192 [1, 0] x transposes_S8192x1_S1x8192_1_0 (ix2 (0 : Fin 1) n) = x (ix2 n (0 : Fin 1)) :=
  transpose_ix2_apply x transposes_S8192x1_S1x8192_1_0 (0 : Fin 1) n

variable (m : (ℓ : Loc nD τ sig) → Buf (Elt Ideal) ℓ)

/-- The narrow-format copy of q the region stages is q. -/
theorem entry_q (c : Dev nD) :
    (V m c main_v7 : S8192x512.Idx → EReal) = (m ((c : Thread nD τ).loc main_arg0) : S8192x512.Idx → EReal) := by
  dsimp only [V, hostOps0]; after_results; rfl

/-- The narrow-format copy of s the region stages is s. -/
theorem entry_s (c : Dev nD) :
    (V m c main_v8 : S8192x512.Idx → EReal) = (m ((c : Thread nD τ).loc main_arg1) : S8192x512.Idx → EReal) := by
  dsimp only [V, hostOps0]; after_results; rfl

/-- The column the region stages holds the squared norms of the rows of q. -/
theorem entry_col (c : Dev nD) (n : Fin 8192) :
    (V m c main_v2 : S8192x1.Idx → EReal) (ix2 n (0 : Fin 1)) = sqnorm (m ((c : Thread nD τ).loc main_arg0)) n := by
  have e : (V m c main_v2 : S8192x1.Idx → EReal)
      = broadcastInDim S8192x1 ![0] bcast_S8192_S8192x1_0 (norms (m ((c : Thread nD τ).loc main_arg0))) := by
    dsimp only [V, hostOps0]; after_results; rfl
  rw [e, column_apply, norms_apply]

/-- The row the region stages holds the squared norms of the rows of s. -/
theorem entry_row (c : Dev nD) (n : Fin 8192) :
    (V m c main_v6 : S1x8192.Idx → EReal) (ix2 (0 : Fin 1) n) = sqnorm (m ((c : Thread nD τ).loc main_arg1)) n := by
  have e : (V m c main_v6 : S1x8192.Idx → EReal)
      = transpose S1x8192 [1, 0] (broadcastInDim S8192x1 ![0] bcast_S8192_S8192x1_0 (norms (m ((c : Thread nD τ).loc main_arg1))))
          transposes_S8192x1_S1x8192_1_0 := by
    dsimp only [V, hostOps0]; after_results; rfl
  rw [e, row_apply, column_apply, norms_apply]

end Cert.SqDist.Entry

end
-- ==== Proof.KernelDist.lean ====
/-
  The kernel computes the specification.

  The grid has 4 × 16 points; point `(a, b)` works on rows 2048a … 2048a + 2047 of q (and of the column of its squared
  norms) and rows 512b … 512b + 511 of s (and of the row of its squared norms), and writes block `(a, b)` of the
  result, of 2048 × 512 entries.  Entry `(p, r)` of that block is the clamped squared distance of row 2048a + p of q
  and row 512b + r of s, which is the specification's entry at `(2048a + p, 512b + r)`: what a point writes back is
  its block of the specification.  The 64 blocks tile the [8192, 8192] result, so after the run the result array is
  the specification.
-/
import proofs.«142391_j55722905699254_2_alg».proof.Proof.Gen.KernelIdeal.Value
import proofs.«142391_j55722905699254_2_alg».proof.Proof.BlockDist
import proofs.«142391_j55722905699254_2_alg».proof.Proof.RegionEntry

noncomputable section

open scoped BigOperators

namespace Cert.SqDist.Kernel

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The index maps, decided over the 64 grid points: the q-block and the column of norms move with the result block's
    row index, the s-block and the row of norms with its column index; the other block coordinate of each input is 0. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 3 ∧ win0_4.index t (1 : Fin 2) ≤ 15 :=
  (by decide +kernel : ∀ t : Fin grid0.N, _)

/-- Every one of the 4 × 16 result blocks is some point's. -/
theorem idx_onto : ∀ (q0 : Fin 4) (q1 : Fin 16), ∃ t : Fin cfg0.N, win0_4.index t = ![q0.val, q1.val] :=
  (by decide +kernel : ∀ (q0 : Fin 4) (q1 : Fin 16), ∃ t : Fin grid0.N, win0_4.index t = ![q0.val, q1.val])

/-- The q-block at point `t`, at `(p, k)`: q at row `n`, where `n` is the result block's row offset plus `p`. -/
theorem qblock_apply (c : Dev nD) (t : Fin cfg0.N) (p : Fin 2048) (k : Fin 512) (n : Fin 8192)
    (hn : n.val = win0_4.index t (0 : Fin 2) * 2048 + p.val) :
    (iblk m c 0 t : Vec Ideal S2048x512 .bf16) (ix2 p k)
      = (m ((c : Thread nD τ).loc main_arg0) : S8192x512.Idx → EReal) (ix2 n k) := by
  obtain ⟨e00, e01, -⟩ := idx_facts t
  unfold iblk
  rw [View.read_apply]
  show V m c main_v7 _ = _
  refine (congrFun (Entry.entry_q m c) _).trans (congrArg _ (funext fun a => Fin.ext ?_))
  match a with
  | ⟨0, _⟩ => show win0_0.index t (0 : Fin 2) * 2048 + 1 * p.val = n.val; omega
  | ⟨1, _⟩ => show win0_0.index t (1 : Fin 2) * 512 + 1 * k.val = k.val; omega

/-- The s-block at point `t`, at `(r, k)`: s at row `n`, where `n` is the result block's column offset plus `r`. -/
theorem sblock_apply (c : Dev nD) (t : Fin cfg0.N) (r : Fin 512) (k : Fin 512) (n : Fin 8192)
    (hn : n.val = win0_4.index t (1 : Fin 2) * 512 + r.val) :
    (iblk m c 1 t : Vec Ideal S512x512 .bf16) (ix2 r k)
      = (m ((c : Thread nD τ).loc main_arg1) : S8192x512.Idx → EReal) (ix2 n k) := by
  obtain ⟨-, -, e10, e11, -⟩ := idx_facts t
  unfold iblk
  rw [View.read_apply]
  show V m c main_v8 _ = _
  refine (congrFun (Entry.entry_s m c) _).trans (congrArg _ (funext fun a => Fin.ext ?_))
  match a with
  | ⟨0, _⟩ => show win0_1.index t (0 : Fin 2) * 512 + 1 * r.val = n.val; omega
  | ⟨1, _⟩ => show win0_1.index t (1 : Fin 2) * 512 + 1 * k.val = k.val; omega

/-- The block of the column of norms at point `t`, at `(p, 0)`: the squared norm of row `n` of q. -/
theorem colblock_apply (c : Dev nD) (t : Fin cfg0.N) (p : Fin 2048) (n : Fin 8192)
    (hn : n.val = win0_4.index t (0 : Fin 2) * 2048 + p.val) :
    (iblk m c 2 t : Vec Ideal S2048x1 .f32) (ix2 p (0 : Fin 1)) = sqnorm (m ((c : Thread nD τ).loc main_arg0)) n := by
  obtain ⟨-, -, -, -, e20, e21, -⟩ := idx_facts t
  unfold iblk
  rw [View.read_apply]
  show V m c main_v2 _ = _
  refine (congrArg (V m c main_v2 : S8192x1.Idx → EReal) (funext fun a => Fin.ext ?_)).trans (Entry.entry_col m c n)
  match a with
  | ⟨0, _⟩ => show win0_2.index t (0 : Fin 2) * 2048 + 1 * p.val = n.val; omega
  | ⟨1, _⟩ => show win0_2.index t (1 : Fin 2) * 1 + 1 * 0 = 0; omega

/-- The block of the row of norms at point `t`, at `(0, r)`: the squared norm of row `n` of s. -/
theorem rowblock_apply (c : Dev nD) (t : Fin cfg0.N) (r : Fin 512) (n : Fin 8192)
    (hn : n.val = win0_4.index t (1 : Fin 2) * 512 + r.val) :
    (iblk m c 3 t : Vec Ideal S1x512 .f32) (ix2 (0 : Fin 1) r) = sqnorm (m ((c : Thread nD τ).loc main_arg1)) n := by
  obtain ⟨-, -, -, -, -, -, e30, e31, -⟩ := idx_facts t
  unfold iblk
  rw [View.read_apply]
  show V m c main_v6 _ = _
  refine (congrArg (V m c main_v6 : S1x8192.Idx → EReal) (funext fun a => Fin.ext ?_)).trans (Entry.entry_row m c n)
  match a with
  | ⟨0, _⟩ => show win0_3.index t (0 : Fin 2) * 1 + 1 * 0 = 0; omega
  | ⟨1, _⟩ => show win0_3.index t (1 : Fin 2) * 512 + 1 * r.val = n.val; omega

/-- WHAT POINT `t` WRITES BACK is its block of the specification of the two arguments. -/
theorem flushed_eq (c : Dev nD) (t : Fin cfg0.N) :
    (dats m 0 c).flushed 4 t = ((cfg0.win 4).blk t).view.read (Elt Ideal)
      (dist (m ((c : Thread nD τ).loc main_arg0)) (m ((c : Thread nD τ).loc main_arg1))) := by
  show (cfg0.win 4).cut (grid0.coords t) ((dats m 0 c).after 4 t) = _
  rw [after0_4]
  unfold out0_4
  rw [View.canon_unit_zero hz]
  simp only [View.ld_unit_zero (S := S2048x512) hz, View.ld_unit_zero (S := S512x512) hz,
    View.ld_unit_zero (S := S2048x1) hz, View.ld_unit_zero (S := S1x512) hz]
  obtain ⟨-, -, -, -, -, -, -, -, b0, b1⟩ := idx_facts t
  refine funext fun (j : S2048x512.Idx) => ?_
  obtain ⟨p, r, rfl⟩ : ∃ (p : Fin 2048) (r : Fin 512), j = ix2 p r := ⟨j 0, j 1, eq_ix2 j⟩
  have hp := p.isLt
  have hr := r.isLt
  let n : Fin 8192 := ⟨win0_4.index t (0 : Fin 2) * 2048 + p.val, by omega⟩
  let mm : Fin 8192 := ⟨win0_4.index t (1 : Fin 2) * 512 + r.val, by omega⟩
  have he : ((cfg0.win 4).blk t).view.emb (ix2 p r) = ix2 n mm := funext fun a => Fin.ext (by
    match a with
    | ⟨0, _⟩ => show win0_4.index t (0 : Fin 2) * 2048 + 1 * p.val = win0_4.index t (0 : Fin 2) * 2048 + p.val; omega
    | ⟨1, _⟩ => show win0_4.index t (1 : Fin 2) * 512 + 1 * r.val = win0_4.index t (1 : Fin 2) * 512 + r.val; omega)
  show k0_pay1 (iblk m c 0 t) (iblk m c 1 t) (iblk m c 2 t) (iblk m c 3 t) (ix2 p r)
    = dist (m ((c : Thread nD τ).loc main_arg0)) (m ((c : Thread nD τ).loc main_arg1)) (((cfg0.win 4).blk t).view.emb (ix2 p r))
  rw [he, dist_ix2]
  refine (Block.pay_apply (iblk m c 0 t) (iblk m c 1 t) (iblk m c 2 t) (iblk m c 3 t) p r).trans ?_
  rw [colblock_apply m c t p n rfl, rowblock_apply m c t r mm rfl]
  refine congrArg _ (Finset.sum_congr rfl fun k _ => ?_)
  rw [qblock_apply m c t p k n rfl, sblock_apply m c t r k mm rfl]

/-- An index of the result is in point `t`'s block iff each coordinate is in the block's range on its axis. -/
theorem mem_blk (t : Fin cfg0.N) (i : S8192x8192.Idx) :
    i ∈ ((cfg0.win 4).blk t).view.set ↔ ∀ a : Fin 2, win0_4.index t a * S2048x512.size a ≤ (i a).val
      ∧ (i a).val < win0_4.index t a * S2048x512.size a + S2048x512.size a := by
  show i ∈ ((View.whole main_v9).slice (win0_4.rect t)).set ↔ _
  rw [View.set_slice_whole, Rect.mem_set_unit]
  exact Iff.rfl

/-- The 64 blocks cover the result: entry `(n, m)` is in the block of the point with block index (n / 2048, m / 512). -/
theorem cover (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto ⟨(i 0).val / 2048, by omega⟩ ⟨(i 1).val / 512, by omega⟩
  have q0 : win0_4.index t (0 : Fin 2) = (i 0).val / 2048 := congrFun ht 0
  have q1 : win0_4.index t (1 : Fin 2) = (i 1).val / 512 := congrFun ht 1
  refine ⟨t, flush0_4 t, ?_⟩
  rw [mem_blk]
  intro a
  match a with
  | ⟨0, _⟩ =>
    show win0_4.index t (0 : Fin 2) * 2048 ≤ (i 0).val ∧ (i 0).val < win0_4.index t (0 : Fin 2) * 2048 + 2048
    omega
  | ⟨1, _⟩ =>
    show win0_4.index t (1 : Fin 2) * 512 ≤ (i 1).val ∧ (i 1).val < win0_4.index t (1 : Fin 2) * 512 + 512
    omega

/-- THE RESULT ARRAY after the run is the specification of the two arguments. -/
theorem final (c : Dev nD) : (dats m 0 c).arrAt 4 cfg0.N
    = dist (m ((c : Thread nD τ).loc main_arg0)) (m ((c : Thread nD τ).loc main_arg1)) :=
  (dats m 0 c).arrAt_eq_of_cover 4 _ (fun t _ => flushed_eq m c t) cover

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v9) = dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.SqDist.Kernel

end
-- ==== Proof.RefDist.lean ====
/-
  The reference computes the specification.

  Read one operation at a time, entry `(n, m)` of the reference's result is
  max((q2 + s2) − 2·cross, 0) where q2 is the reduction over the second axis of q·q at row `n` (broadcast to a
  column, then along the columns), s2 the same for s at row `m` (broadcast to a row, then along the rows), and
  cross the `dot_general` contracting the second axis of both operands, i.e. the inner product of row `n` of q with
  row `m` of s.  The composed index maps of the broadcasts send `(n, m)` to row `n`, respectively row `m`.
-/
import proofs.«142391_j55722905699254_2_alg».proof.Proof.Gen.ReferenceIdeal.Read
import proofs.«142391_j55722905699254_2_alg».proof.Proof.SqDistSpec

noncomputable section

open scoped BigOperators

namespace Cert.SqDist.Ref

open Cert.ReferenceIdeal Cert.ReferenceIdeal.Read Idealize.ShloMosaic Idealize.ShloMosaic.ValueIdx

/-- The reference's last stage is the clamped squared-distance array of its two arguments. -/
theorem result_eq (x0 x1 : (⟨S8192x512, .f32⟩ : BufTy).Contents (Elt Ideal)) :
    val_main_v14 (F := Ideal) x0 x1 = dist x0 x1 := by
  funext i
  obtain ⟨n, mm, rfl⟩ : ∃ (n mm : Fin 8192), i = ix2 n mm := ⟨i 0, i 1, eq_ix2 i⟩
  have e1 : ∀ k : Fin 512, idx_main_v1 (idx_main_v2 (idx_main_v7 (ix2 n mm))) k = ix2 n k := fun k =>
    funext fun a => Fin.ext (by match a with | ⟨0, _⟩ => rfl | ⟨1, _⟩ => rfl)
  have e4 : ∀ k : Fin 512, idx_main_v4 (idx_main_v5 (idx_main_v8 (ix2 n mm))) k = ix2 mm k := fun k =>
    funext fun a => Fin.ext (by match a with | ⟨0, _⟩ => rfl | ⟨1, _⟩ => rfl)
  have el : ∀ k : Fin 512, lidx_main_v6 (ix2 n mm) k = ix2 n k := fun k =>
    funext fun a => Fin.ext (by match a with | ⟨0, _⟩ => rfl | ⟨1, _⟩ => rfl)
  have er : ∀ k : Fin 512, ridx_main_v6 (ix2 n mm) k = ix2 mm k := fun k =>
    funext fun a => Fin.ext (by match a with | ⟨0, _⟩ => rfl | ⟨1, _⟩ => rfl)
  rw [val_main_v14_apply, val_main_v12_apply, val_main_v9_apply, val_main_v7_apply, val_main_v2_apply,
    val_main_v1_apply, val_main_v8_apply, val_main_v5_apply, val_main_v4_apply, val_main_v11_apply,
    val_main_v10_apply, val_main_v6_apply, val_main_v13_apply]
  simp only [e1, e4, el, er, val_main_v0_apply, val_main_v3_apply, val_main_cst_apply, val_main_cst_0_apply,
    val_main_cst_1_apply, val_main_cst_2_apply, Ideal.maximumf_def, Ideal.subf_def, Ideal.addf_def, Ideal.mulf_def,
    Ideal.ofBits_def]
  rfl

end Cert.SqDist.Ref

end
-- ==== Proof.lean ====
/-
  Pairwise squared distances between the rows of q and the rows of s (8192 rows of 512 numbers each), computed
  through |q_n − s_m|² = |q_n|² + |s_m|² − 2⟨q_n, s_m⟩ and clamped at 0, in two programs.

  The reference forms the squared norms by a reduction of q·q and of s·s over the second axis, broadcasts them to
  the full [8192, 8192] square, forms all inner products by one contraction of the second axis of both arguments,
  and ends with max((q2 + s2) − 2·cross, 0).  The kernel forms the same two vectors of squared norms ahead of its
  grid (the first as a column, the second as a column transposed into a row), passes the arguments through a change
  of float format (the identity on extended reals), and at each of its 4 × 16 grid points computes one 2048 × 512
  block of the result: the product of a block of rows of q with the transpose of a block of rows of s into a zero
  accumulator, then max((column + row) − 2·product, 0).

  Both are, entry by entry, the one expression `SqDist.dist` (SqDistSpec.lean): the same operations in the same
  grouping, the sums over the 512 coordinates ranging over the same index set, so the equality holds for all
  extended-real inputs and the finiteness of the inputs is not used.  RefDist.lean reads the reference's last stage
  at an index; BlockDist.lean the kernel body's stored block; RegionEntry.lean the arrays the grid starts from;
  KernelDist.lean puts the 64 blocks together into the result array.  The three frame claims are the generated frame
  runs (the reference's its generated run with the result dropped), and the kernel is its own idealization: no
  operation was rewritten, so that claim is `True`.
-/
import proofs.«142391_j55722905699254_2_alg».proof.Defs
import proofs.«142391_j55722905699254_2_alg».proof.Proof.Gen.Kernel
import proofs.«142391_j55722905699254_2_alg».proof.Proof.Gen.Kernel.Skeleton
import proofs.«142391_j55722905699254_2_alg».proof.Proof.Gen.Kernel.Launch
import proofs.«142391_j55722905699254_2_alg».proof.Proof.Gen.Kernel.Points
import proofs.«142391_j55722905699254_2_alg».proof.Proof.Gen.Kernel.Frame
import proofs.«142391_j55722905699254_2_alg».proof.Proof.Gen.KernelIdeal
import proofs.«142391_j55722905699254_2_alg».proof.Proof.Gen.KernelIdeal.Skeleton
import proofs.«142391_j55722905699254_2_alg».proof.Proof.Gen.KernelIdeal.Launch
import proofs.«142391_j55722905699254_2_alg».proof.Proof.Gen.KernelIdeal.Points
import proofs.«142391_j55722905699254_2_alg».proof.Proof.Gen.KernelIdeal.Frame
import proofs.«142391_j55722905699254_2_alg».proof.Proof.Gen.ReferenceIdeal
import proofs.«142391_j55722905699254_2_alg».proof.Proof.Gen.Pre_finite_inputs
import proofs.«142391_j55722905699254_2_alg».proof.Proof.Gen.KernelIdeal.Value
import proofs.«142391_j55722905699254_2_alg».proof.Proof.Gen.ReferenceIdeal.Run
import proofs.«142391_j55722905699254_2_alg».proof.Proof.Gen.ReferenceIdeal.Read
import proofs.«142391_j55722905699254_2_alg».proof.Proof.KernelDist
import proofs.«142391_j55722905699254_2_alg».proof.Proof.RefDist
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments unchanged: the generated frame run. -/
theorem frame_kernel : Cert.frame_Kernel := fun m ρ _ => Cert.Kernel.Gen.frame m ρ

/-- The same for the kernel read at the ideal instance. -/
theorem frame_kernelIdeal : Cert.frame_KernelIdeal := fun m ρ _ => Cert.KernelIdeal.Gen.frame m ρ

/-- The reference runs and leaves its arguments unchanged: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to its idealization. -/
theorem preserves : Cert.preserves_Kernel_KernelIdeal := trivial

/-- From memories agreeing on q and s, the kernel's result array ends at the specification of its arguments
    (KernelDist.lean) and the reference's at the specification of its own (RefDist.lean), which are the same
    arguments. -/
theorem algebraic : Cert.algebraic_KernelIdeal_ReferenceIdeal := by
  intro m ρ m' ρ' _ hagree
  refine ⟨fun c => Cert.SqDist.dist (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.SqDist.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, Cert.SqDist.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
